-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S256x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S1024x4096 : Shape := ⟨2, ![1024, 4096]⟩
abbrev S1024 : Shape := ⟨1, ![1024]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S4096x4096 .f32) (main_arg1 : FVec F S1024x4096 .f32) (main_arg2 : FVec F S1024 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1024x4096 .f32 := Host.absf main_arg1
  let main_cst_0 : FVec F S_ .f32 := constant S_ .f32 0x7F800000#32
  let main_v5 : FVec F S1024x4096 .f32 := broadcastInDim S1024x4096 ![] bcast_S_S1024x4096 main_cst_0
  let main_v6 : IVec S1024x4096 1 := cmpf .olt main_v4 main_v5
  let main_c_1 : IVec S_ 1 := constantI S_ 1 1#1
  let main_v7 : IVec S_ 1 := (fun x v => Host.reduce IntOp.andi x v reducesTo_S1024x4096_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S4096x4096 : Shape := ⟨2, ![4096, 4096]⟩
abbrev S1024x4096 : Shape := ⟨2, ![1024, 4096]⟩
abbrev S1024 : Shape := ⟨1, ![1024]⟩
abbrev S256x4096 : Shape := ⟨2, ![256, 4096]⟩
abbrev S256 : Shape := ⟨1, ![256]⟩
abbrev S256x1 : Shape := ⟨2, ![256, 1]⟩
abbrev S1x1024 : Shape := ⟨2, ![1, 1024]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S1024, .f32⟩
  | .hbm, ⟨3, _⟩ => ⟨S1024x4096, .bf16⟩
  | .hbm, ⟨4, _⟩ => ⟨S1x1024, .f32⟩
  | .hbm, ⟨5, _⟩ => ⟨S4096x1024, .f32⟩
  | .local _ .vmem, ⟨0, _⟩ => ⟨S256x4096, .f32⟩
  | .local _ .vmem, ⟨1, _⟩ => ⟨S256x4096, .f32⟩
  | .local _ .vmem, ⟨2, _⟩ => ⟨S256x4096, .bf16⟩
  | .local _ .vmem, ⟨3, _⟩ => ⟨S256x4096, .bf16⟩
  | .local _ .vmem, ⟨4, _⟩ => ⟨S512x4096, .f32⟩
  | .local _ .vmem, ⟨5, _⟩ => ⟨S512x4096, .f32⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [BitOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x4096 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  natLt_1_32 : 1 < 32
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S1024_S1x1024 : S1024.ShapeCasts S1x1024
  inb_S512x4096_S512x4096_0_0 : ∀ a, (![0, 0] : Fin 2 → Nat) a + S512x4096.size a ≤ S512x4096.size a
  h_S512x4096 : 0 < S512x4096.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S1024x4096.size a
  hwx0_0 : ∀ i : grid0.Coords, EltTy.bits .f32 = 32 ∨ (Rect.block (s := S1024x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S1024x4096.size a
  hwx0_1 : ∀ i : grid0.Coords, EltTy.bits .bf16 = 32 ∨ (Rect.block (s := S1024x4096) S256x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S1024x4096.size a
  hwx1_1 : ∀ i : grid1.Coords, EltTy.bits .bf16 = 32 ∨ (Rect.block (s := S1024x4096) S1024x4096.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x4096 : Shape := ⟨2, ![4096, 4096]⟩
abbrev S1024x4096 : Shape := ⟨2, ![1024, 4096]⟩
abbrev S1024 : Shape := ⟨1, ![1024]⟩
abbrev S_ : Shape := ⟨0, ![]⟩
abbrev S1024x1 : Shape := ⟨2, ![1024, 1]⟩
abbrev S4096x1024 : Shape := ⟨2, ![4096, 1024]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1024x4096, .f32⟩
  | .hbm, ⟨2, _⟩ => ⟨S1024, .f32⟩
  | .hbm, ⟨3, _⟩ => ⟨S1024x4096, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x4096, .f32⟩
  | .hbm, ⟨14, _⟩ => ⟨S1024x4096, .i1⟩
  | .hbm, ⟨15, _⟩ => ⟨S1024x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024x4096, .f32⟩
  | .hbm, ⟨24, _⟩ => ⟨S_, .f32⟩
  | .hbm, ⟨25, _⟩ => ⟨S1024, .f32⟩
  | .hbm, ⟨26, _⟩ => ⟨S1024, .f32⟩
  | .hbm, ⟨27, _⟩ => ⟨S1024x1, .f32⟩
  | .hbm, ⟨28, _⟩ => ⟨S1024x4096, .f32⟩
  | .hbm, ⟨29, _⟩ => ⟨S1024x4096, .f32⟩
  | .hbm, ⟨30, _⟩ => ⟨S1024x4096, .f32⟩
  | .hbm, ⟨31, _⟩ => ⟨S1024x4096, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  reducesTo_S1024x4096_S1024_d1 : S1024x4096.ReducesTo [1] S1024
  h_S_ : 0 < S_.numel
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1024x1_S1024x4096_0_1 : S1024x1.BroadcastsInDim S1024x4096 (![0, 1] : Fin 2 → Fin S1024x4096.rank)
  bcast_S_S1024 : S_.BroadcastsInDim S1024 (![] : Fin 0 → Fin S1024.rank)
  transposes_S1024x4096_S4096x1024_1_0 : S1024x4096.Transposes [1, 0] S4096x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x4096_S4096x1024_S4096x1024_1_0_0_1_n_n_wf : DotDims.WF S4096x4096 S4096x1024 S4096x1024 [1] [0] [0] [1] [] []

variable [Facts₀]

def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  Ternary weight quantization followed by a linear layer, as ONE function of the three argument arrays
  on the extended reals.

  For a row r of the weight matrix (4096 entries):
    threshold r = c · ((Σ_k |r k|) / 4096)          c the binary32 word nearest 0.05, 4096 its own word
    kept r k    = 1 if |r k| > threshold r, else 0
    keptCount r = max (Σ_k kept r k) 1
    rowScale r  = (Σ_k |r k| · kept r k) / keptCount r
    ternary r k = sign (r k) · kept r k · rowScale r
  and the layer is  result x w b (i, o) = (Σ_k x (i, k) · ternary (row o of w) k) + b o.

  Both programs compute the row statistics with the same operations in the same order, so nothing here is
  evaluated: the two float words stay words. The one place where the programs differ is that the reference
  adds the weight back after subtracting it (a straight-through estimator, the identity in the forward
  direction): on the extended reals  w + (q - w) = q  holds for every q as soon as w is a real number, and
  fails at w = ±∞, which is why the claim carries the hypothesis that the inputs are finite.
-/
import Idealize.ShloMosaic.PureOps.Ideal
import Idealize.ShloMosaic.PureOps.Ideal.Laws
import Idealize.ShloMosaic.Lib.ValueIdx

noncomputable section

namespace Cert.TernaryLinear

open Idealize.ShloMosaic Idealize.ShloMosaic.ValueIdx

/-- The absolute value on the extended reals (|±∞| = +∞). -/
def mag (a : EReal) : EReal := max a (-a)

/-- One row of the weight matrix. -/
abbrev Row : Type := Fin 4096 → EReal

/-- The row's threshold: the word nearest 0.05 times the mean of the magnitudes. -/
def threshold (r : Row) : EReal :=
  Ideal.ofBits .f32 0x3D4CCCCD#32 * Ideal.div (∑ k : Fin 4096, mag (r k)) (Ideal.ofBits .f32 0x45800000#32)

/-- 1 where the entry's magnitude is above the row's threshold, 0 elsewhere. -/
def kept (r : Row) (k : Fin 4096) : EReal :=
  (((Ideal.cmp .ogt (mag (r k)) (threshold r)).toNat : ℝ) : EReal)

/-- How many entries are kept, at least one. -/
def keptCount (r : Row) : EReal :=
  max (∑ k : Fin 4096, kept r k) (Ideal.ofBits .f32 0x3F800000#32)

/-- The mean magnitude of the kept entries. -/
def rowScale (r : Row) : EReal :=
  Ideal.div (∑ k : Fin 4096, mag (r k) * kept r k) (keptCount r)

/-- The quantized entry: the sign of the entry where it is kept, times the row's scale. -/
def ternary (r : Row) (k : Fin 4096) : EReal :=
  Ideal.sign (r k) * kept r k * rowScale r

/-- Row `o` of a 1024 × 4096 matrix. -/
abbrev rowOf (w : (⟨2, ![1024, 4096]⟩ : Shape).Idx → EReal) (o : Fin 1024) : Row := fun k => w (ix2 o k)

/-- The quantized weight matrix. -/
def quantized (w : (⟨2, ![1024, 4096]⟩ : Shape).Idx → EReal) : (⟨2, ![1024, 4096]⟩ : Shape).Idx → EReal :=
  fun i => ternary (rowOf w (i 0)) (i 1)

/-- The layer: x times the transpose of the quantized weight, plus the bias along the rows. -/
def result (x : (⟨2, ![4096, 4096]⟩ : Shape).Idx → EReal) (w : (⟨2, ![1024, 4096]⟩ : Shape).Idx → EReal)
    (b : (⟨1, ![1024]⟩ : Shape).Idx → EReal) : (⟨2, ![4096, 1024]⟩ : Shape).Idx → EReal :=
  fun i => (∑ k : Fin 4096, x (ix2 (i 0) k) * quantized w (ix2 (i 1) k)) + b (ix1 (i 1))

/-- The quantized matrix at an entry, by its row and column. -/
theorem quantized_apply (w : (⟨2, ![1024, 4096]⟩ : Shape).Idx → EReal) (o : Fin 1024) (k : Fin 4096) :
    quantized w (ix2 o k) = ternary (rowOf w o) k := rfl

/-- The layer at an entry, by its row and column. -/
theorem result_apply (x : (⟨2, ![4096, 4096]⟩ : Shape).Idx → EReal) (w : (⟨2, ![1024, 4096]⟩ : Shape).Idx → EReal)
    (b : (⟨1, ![1024]⟩ : Shape).Idx → EReal) (p : Fin 4096) (q : Fin 1024) :
    result x w b (ix2 p q) = (∑ k : Fin 4096, x (ix2 p k) * ternary (rowOf w q) k) + b (ix1 q) := rfl

/-- Adding a real number back after subtracting it changes nothing, whatever the other term is: at q = ±∞
    both sides are q, and on the reals it is the ring identity. (False at w = ±∞.) -/
theorem add_sub_cancel_of_real (w : ℝ) (q : EReal) : (w : EReal) + (q - (w : EReal)) = q := by
  induction q using EReal.rec with
  | bot => simp
  | coe r => rw [← EReal.coe_sub, ← EReal.coe_add]; congr 1; ring
  | top => simp

/-- A one-bit word widened to 32 bits and read as a signed integer is the bit. -/
theorem toInt_setWidth_bit (b : BitVec 1) : (b.setWidth 32).toInt = (b.toNat : Int) := by
  revert b; decide

end Cert.TernaryLinear

end
-- ==== Proof.RefIsSpec.lean ====
/-
  The reference program's result, stage by stage, is the function `result` of the specification.

  Every stage of the reference's quantization is read at an index and recognised as the corresponding row
  statistic of the row the index lies in: the threshold (a mean of magnitudes scaled by the 0.05 word), the
  0/1 mask, the kept count (at least one), the row's scale, the ternary entry. The host's sums start from a
  zero word, which is the real number 0. The reference then forms  w + (q - w)  with q the ternary entry; this
  is q because every weight is a real number (the hypothesis `hfin`). Last, the transpose followed by the
  contraction over the transposed matrix's first axis is the sum over k of x (i, k) · q (o, k), and the two
  broadcasts of the bias read it at the column.
-/
import proofs.«164783_j23682449670371_2_alg».proof.Proof.Gen.ReferenceIdeal.Read
import proofs.«164783_j23682449670371_2_alg».proof.Proof.Spec

noncomputable section

namespace Cert.TernaryLinear.Ref

open Cert.ReferenceIdeal Cert.ReferenceIdeal.Gen Cert.ReferenceIdeal.Read
open Idealize.ShloMosaic Idealize.ShloMosaic.ValueIdx Cert.TernaryLinear

/-- The weight array as the reference reads it. -/
abbrev WArr : Type := (⟨S1024x4096, .f32⟩ : BufTy).Contents (Elt Ideal)

/-- The threshold broadcast over the matrix, at an entry of row `o`, is row `o`'s threshold. -/
theorem threshold_at (x1 : WArr) (o : Fin 1024) (k : Fin 4096) :
    val_main_v7 (F := Ideal) x1 (ix2 o k) = threshold (rowOf x1 o) := by
  rw [val_main_v7_apply, val_main_v6_apply, val_main_v5_apply, val_main_cst_1_apply, val_main_v4_apply,
    val_main_v2_apply, val_main_v3_apply, val_main_cst_0_apply, val_main_v1_apply, val_main_cst_apply]
  unfold threshold
  simp only [Ideal.mulf_def, Ideal.hostDivf_def, Ideal.ofBits_def, Ideal.ofBits_zero_f32, zero_add]
  refine congrArg (fun s => Ideal.ofBits .f32 0x3D4CCCCD#32 * Ideal.div s (Ideal.ofBits .f32 0x45800000#32))
    (Finset.sum_congr rfl fun k' _ => ?_)
  rw [val_main_v0_apply]
  have e : idx_main_v1 (idx_main_v2 (idx_main_v7 (ix2 o k))) k' = ix2 o k' :=
    funext fun a => by match a with | ⟨0, _⟩ => rfl | ⟨1, _⟩ => rfl
  rw [e]; rfl

/-- The mask at an entry is 1 or 0 by the comparison of its magnitude with its row's threshold. -/
theorem kept_at (x1 : WArr) (o : Fin 1024) (k : Fin 4096) :
    val_main_v9 (F := Ideal) x1 (ix2 o k) = kept (rowOf x1 o) k := by
  rw [val_main_v9_apply, val_main_v8_apply, threshold_at, val_main_v0_apply]
  rfl

/-- The number of kept entries of a row, at least one. -/
theorem keptCount_at (x1 : WArr) (o : Fin 1024) :
    val_main_v14 (F := Ideal) x1 (ix1 o) = keptCount (rowOf x1 o) := by
  rw [val_main_v14_apply, val_main_v13_apply, val_main_cst_3_apply, val_main_v12_apply, val_main_cst_2_apply]
  unfold keptCount
  simp only [Ideal.maximumf_def, Ideal.ofBits_def, Ideal.ofBits_zero_f32, zero_add]
  refine congrArg (fun s => max s (Ideal.ofBits .f32 0x3F800000#32)) (Finset.sum_congr rfl fun k' _ => ?_)
  have e : idx_main_v12 (ix1 o) k' = ix2 o k' :=
    funext fun a => by match a with | ⟨0, _⟩ => rfl | ⟨1, _⟩ => rfl
  rw [e, kept_at]

/-- The row's scale: the sum of the kept magnitudes over the kept count. -/
theorem rowScale_at (x1 : WArr) (o : Fin 1024) :
    val_main_v17 (F := Ideal) x1 (ix1 o) = rowScale (rowOf x1 o) := by
  rw [val_main_v17_apply, keptCount_at, val_main_v16_apply, val_main_cst_4_apply]
  unfold rowScale
  simp only [Ideal.hostDivf_def, Ideal.ofBits_def, Ideal.ofBits_zero_f32, zero_add]
  refine congrArg (fun s => Ideal.div s (keptCount (rowOf x1 o))) (Finset.sum_congr rfl fun k' _ => ?_)
  have e : idx_main_v16 (ix1 o) k' = ix2 o k' :=
    funext fun a => by match a with | ⟨0, _⟩ => rfl | ⟨1, _⟩ => rfl
  rw [e, val_main_v15_apply, kept_at, val_main_v0_apply]
  rfl

/-- The scale broadcast over the matrix, at an entry of row `o`. -/
theorem rowScale_bcast_at (x1 : WArr) (o : Fin 1024) (k : Fin 4096) :
    val_main_v19 (F := Ideal) x1 (ix2 o k) = rowScale (rowOf x1 o) := by
  rw [val_main_v19_apply, val_main_v18_apply]
  have e : idx_main_v18 (idx_main_v19 (ix2 o k)) = ix1 o :=
    funext fun a => by match a with | ⟨0, _⟩ => rfl
  rw [e, rowScale_at]

/-- The quantized entry before the weight is added back. -/
theorem ternary_at (x1 : WArr) (o : Fin 1024) (k : Fin 4096) :
    val_main_v20 (F := Ideal) x1 (ix2 o k) = ternary (rowOf x1 o) k := by
  rw [val_main_v20_apply, val_main_v11_apply, val_main_v10_apply, kept_at, rowScale_bcast_at]
  rfl

/-- Adding the weight back after subtracting it leaves the quantized entry, the weight being a real number. -/
theorem effective_at (x1 : WArr) (hfin : ∀ i, ∃ r : ℝ, x1 i = (r : EReal)) (o : Fin 1024) (k : Fin 4096) :
    val_main_v22 (F := Ideal) x1 (ix2 o k) = ternary (rowOf x1 o) k := by
  rw [val_main_v22_apply, val_main_v21_apply, ternary_at]
  obtain ⟨r, hr⟩ := hfin (ix2 o k)
  simp only [Ideal.addf_def, Ideal.subf_def]
  rw [hr]
  exact add_sub_cancel_of_real r _

/-- The reference's result at row `p`, column `q`: the sum over k of x (p, k) times the quantized weight (q, k),
    plus the bias at `q`. -/
theorem result_at (x0 : (⟨S4096x4096, .f32⟩ : BufTy).Contents (Elt Ideal)) (x1 : WArr)
    (x2 : (⟨S1024, .f32⟩ : BufTy).Contents (Elt Ideal)) (hfin : ∀ i, ∃ r : ℝ, x1 i = (r : EReal))
    (p : Fin 4096) (q : Fin 1024) :
    val_main_v27 (F := Ideal) x0 x1 x2 (ix2 p q)
      = (∑ k : Fin 4096, x0 (ix2 p k) * ternary (rowOf x1 q) k) + x2 (ix1 q) := by
  rw [val_main_v27_apply, val_main_v24_apply, val_main_v26_apply, val_main_v25_apply]
  simp only [Ideal.addf_def]
  have eb : idx_main_v25 (idx_main_v26 (ix2 p q)) = ix1 q :=
    funext fun a => by match a with | ⟨0, _⟩ => rfl
  rw [eb]
  refine congrArg (· + x2 (ix1 q)) (Finset.sum_congr rfl fun k _ => ?_)
  have el : lidx_main_v24 (ix2 p q) k = ix2 p k :=
    funext fun a => by match a with | ⟨0, _⟩ => rfl | ⟨1, _⟩ => rfl
  have er : idx_main_v23 (ridx_main_v24 (ix2 p q) k) = ix2 q k :=
    funext fun a => by match a with | ⟨0, _⟩ => rfl | ⟨1, _⟩ => rfl
  rw [el, val_main_v23_apply, er, effective_at x1 hfin]

/-- The reference's result is `result` of its three arguments, the weights being real numbers. -/
theorem result_eq (x0 : (⟨S4096x4096, .f32⟩ : BufTy).Contents (Elt Ideal)) (x1 : WArr)
    (x2 : (⟨S1024, .f32⟩ : BufTy).Contents (Elt Ideal)) (hfin : ∀ i, ∃ r : ℝ, x1 i = (r : EReal)) :
    val_main_v27 (F := Ideal) x0 x1 x2 = result x0 x1 x2 := by
  funext i
  obtain ⟨p, q, rfl⟩ : ∃ (p : Fin 4096) (q : Fin 1024), i = ix2 p q := ⟨i 0, i 1, eq_ix2 i⟩
  rw [result_at x0 x1 x2 hfin, result_apply]

end Cert.TernaryLinear.Ref

end
-- ==== Proof.LibKeepdims.lean ====
/-
  The two layout steps of a sum that keeps its axis (`jnp.sum(…, axis=1, keepdims=True)`), read at an index:
  a vector of row statistics `[a]` cast to a column `[a, 1]`, and that column broadcast along the rows to
  `[a, b]`. In row-major order the entry (i, 0) of an `[a, 1]` array is entry i of the `[a]` array, and a
  broadcast reads the operand's unit axis at 0 and its full axis at the result's coordinate. General in the
  extents; they complement the leading-unit-axis casts and the row broadcast `[1, b] → [a, b]` of the library.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to the column `[a, 1]` reads, at `(i, u)`, the operand at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.KernelQuant.lean ====
/-
  What the quantization kernel stores, read at an entry.

  The kernel's block holds 256 whole rows of the weight matrix, so every row statistic it computes is the
  statistic of a whole row. Its one store writes, at row p and column q of the block, the ternary entry of
  that row: the lane sums are the sums over the row's 4096 entries, the cast of a vector of row statistics
  to a column followed by the broadcast back along the row reads the statistic of the entry's own row, the
  select on the sign bit is the sign function, the comparison's bit widened to 32 bits and read signed is
  the bit, and the final change of float format is the identity on the extended reals.
-/
import proofs.«164783_j23682449670371_2_alg».proof.Proof.Gen.KernelIdeal.Skeleton
import proofs.«164783_j23682449670371_2_alg».proof.Proof.Spec
import proofs.«164783_j23682449670371_2_alg».proof.Proof.LibKeepdims
import Idealize.ShloMosaic.Lib.Pipeline.Value
import Idealize.ShloMosaic.Lib.ValueIdx
import Idealize.ShloMosaic.PureOps.Ideal.Laws

noncomputable section

namespace Cert.TernaryLinear.Quant

open Cert.KernelIdeal Cert.KernelIdeal.Gen
open Idealize.ShloMosaic Idealize.ShloMosaic.ValueIdx Cert.TernaryLinear Cert.LibKeepdims

/-- A block of 256 rows. -/
abbrev Blk : Type := FVec Ideal S256x4096 .f32

/-- Row `p` of the block. -/
abbrev blkRow (v0 : Blk) (p : Fin 256) : Row := fun k => v0 (ix2 p k)

/-- A sum along the lanes of a block, at row `p`, is the sum of the row's 4096 entries. -/
theorem laneSum_at (src : Blk) (p : Fin 256) :
    multiReduction (F := Ideal) .add [1] S256 src 0x00000000#32 reduces_S256x4096_S256 (.inl rfl) rfl (ix1 p)
      = ∑ k : Fin 4096, src (ix2 p k) :=
  (Ideal.multiReduction_add_single src 0x00000000#32 reduces_S256x4096_S256 (.inl rfl) rfl (ix1 p)).trans
    (Finset.sum_congr rfl fun k _ => congrArg src
      (funext fun a => Fin.ext (by match a with | ⟨0, _⟩ => rfl | ⟨1, _⟩ => rfl)))

/-- A vector of row statistics, cast to a column and read at row `p`. -/
theorem col_at (s : FVec Ideal S256 .f32) (p : Fin 256) :
    shapeCast S256x1 s shapeCasts_S256_S256x1 (ix2 p (0 : Fin 1)) = s (ix1 p) :=
  shapeCast_a_a1_apply s shapeCasts_S256_S256x1 p 0

/-- A column of row statistics broadcast along the rows, read at (p, q). -/
theorem bcast_at (c : FVec Ideal S256x1 .f32) (p : Fin 256) (q : Fin 4096) :
    broadcastTo S256x4096 c broadcasts_S256x1_S256x4096 (ix2 p q) = c (ix2 p (0 : Fin 1)) :=
  broadcastTo_a1_ab_apply c broadcasts_S256x1_S256x4096 p q

/-! ## The body's intermediate vectors, named -/

/-- The thresholds, one per row, broadcast over the block. -/
def threshVec (v0 : Blk) : Blk :=
  broadcastTo S256x4096
    (mulf (broadcast S256x1 (Scalar.ofBits .f32 0x3D4CCCCD#32))
      (divf (shapeCast S256x1 (multiReduction (F := Ideal) .add [1] S256 (absf v0) 0x00000000#32 reduces_S256x4096_S256 (.inl rfl) rfl) shapeCasts_S256_S256x1)
        (broadcast S256x1 (Scalar.ofBits .f32 0x45800000#32))))
    broadcasts_S256x1_S256x4096

/-- The mask: 1 where the magnitude is above the row's threshold. -/
def maskVec (v0 : Blk) : Blk :=
  sitofp .f32 (extui 32 (cmpf .ogt (absf v0) (threshVec v0)) natLt_1_32)

/-- The signs: 1 with the entry's sign bit where the entry is not zero, the entry itself (zero) elsewhere. -/
def signVec (v0 : Blk) : Blk :=
  select (cmpf .ogt (absf v0) (broadcast S256x4096 (Scalar.ofBits .f32 0x00000000#32)))
    (select (cmpf .olt v0 (constant S256x4096 .f32 0x00000000#32)) (constant S256x4096 .f32 0xBF800000#32)
      (constant S256x4096 .f32 0x3F800000#32)) v0

/-- The kept counts, at least one, as a column. -/
def countCol (v0 : Blk) : FVec Ideal S256x1 .f32 :=
  maximumf (shapeCast S256x1 (multiReduction (F := Ideal) .add [1] S256 (maskVec v0) 0x00000000#32 reduces_S256x4096_S256 (.inl rfl) rfl) shapeCasts_S256_S256x1)
    (broadcast S256x1 (Scalar.ofBits .f32 0x3F800000#32))

/-- The row scales broadcast over the block. -/
def scaleVec (v0 : Blk) : Blk :=
  broadcastTo S256x4096
    (divf (shapeCast S256x1 (multiReduction (F := Ideal) .add [1] S256 (mulf (absf v0) (maskVec v0)) 0x00000000#32 reduces_S256x4096_S256 (.inl rfl) rfl) shapeCasts_S256_S256x1)
      (countCol v0))
    broadcasts_S256x1_S256x4096

/-- The stored value is the product of the three, after a change of format. -/
theorem pay_eq (v0 : Blk) :
    k0_pay1 (F := Ideal) v0 = truncf .bf16 (mulf (mulf (signVec v0) (maskVec v0)) (scaleVec v0)) bitsLt_bf16_f32 := rfl

/-! ## Each read at an entry -/

theorem threshVec_at (v0 : Blk) (p : Fin 256) (q : Fin 4096) :
    threshVec v0 (ix2 p q) = threshold (blkRow v0 p) := by
  unfold threshVec
  refine (bcast_at _ p q).trans ?_
  show Ideal.ofBits .f32 0x3D4CCCCD#32 * Ideal.div (shapeCast S256x1 _ shapeCasts_S256_S256x1 (ix2 p (0 : Fin 1))) (Ideal.ofBits .f32 0x45800000#32) = _
  rw [col_at, laneSum_at]
  rfl

theorem maskVec_at (v0 : Blk) (p : Fin 256) (q : Fin 4096) :
    maskVec v0 (ix2 p q) = kept (blkRow v0 p) q := by
  have h : maskVec v0 (ix2 p q)
      = ((((Ideal.cmp .ogt (mag (v0 (ix2 p q))) (threshVec v0 (ix2 p q))).setWidth 32).toInt : ℝ) : EReal) := rfl
  rw [h, threshVec_at, toInt_setWidth_bit, Int.cast_natCast]
  rfl

theorem signVec_at (v0 : Blk) (i : S256x4096.Idx) : signVec v0 i = Ideal.sign (v0 i) :=
  Ideal.jnp_sign_eq_sign_f32 (v0 i)

theorem countCol_at (v0 : Blk) (p : Fin 256) :
    countCol v0 (ix2 p (0 : Fin 1)) = keptCount (blkRow v0 p) := by
  show max (shapeCast S256x1 _ shapeCasts_S256_S256x1 (ix2 p (0 : Fin 1))) (Ideal.ofBits .f32 0x3F800000#32) = _
  rw [col_at, laneSum_at]
  unfold keptCount
  simp only [maskVec_at]

theorem scaleVec_at (v0 : Blk) (p : Fin 256) (q : Fin 4096) :
    scaleVec v0 (ix2 p q) = rowScale (blkRow v0 p) := by
  unfold scaleVec
  refine (bcast_at _ p q).trans ?_
  show Ideal.div (shapeCast S256x1 _ shapeCasts_S256_S256x1 (ix2 p (0 : Fin 1))) (countCol v0 (ix2 p (0 : Fin 1))) = _
  rw [col_at, laneSum_at, countCol_at]
  unfold rowScale
  refine congrArg (fun s => Ideal.div s (keptCount (blkRow v0 p))) (Finset.sum_congr rfl fun k _ => ?_)
  show mag (v0 (ix2 p k)) * maskVec v0 (ix2 p k) = _
  rw [maskVec_at]

/-- What the body stores at row `p`, column `q` of its block: the ternary entry of the block's row `p`. -/
theorem pay_at (v0 : Blk) (p : Fin 256) (q : Fin 4096) :
    k0_pay1 (F := Ideal) v0 (ix2 p q) = ternary (blkRow v0 p) q := by
  rw [pay_eq]
  show signVec v0 (ix2 p q) * maskVec v0 (ix2 p q) * scaleVec v0 (ix2 p q) = _
  rw [signVec_at, maskVec_at, scaleVec_at]
  rfl

end Cert.TernaryLinear.Quant

end
-- ==== Proof.KernelMatmul.lean ====
/-
  What the matmul kernel stores, read at an entry.

  At row p and column q of its output block the body stores the sum over k of x-block (p, k) times the
  weight (q, k), plus the bias at q: the product contracts the second axis of BOTH operands (the weight is
  used as its transpose without being transposed), the accumulator it starts from is the zero word, the change
  of float format of x and the casts of an array to its own shape are identities, and the one-row bias is
  broadcast over the block's rows.
-/
import proofs.«164783_j23682449670371_2_alg».proof.Proof.Gen.KernelIdeal.Skeleton
import proofs.«164783_j23682449670371_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.TernaryLinear.Matmul

open Cert.KernelIdeal Cert.KernelIdeal.Gen
open Idealize.ShloMosaic Idealize.ShloMosaic.ValueIdx Cert.TernaryLinear

/-- The product's dimension record: both operands contracted along their second axis. -/
abbrev D : DotDims S512x4096 S1024x4096 S512x1024 := dot_S512x4096_S1024x4096_S512x1024_1_1_0_0_n_n

/-! ## The operand indices of the product at an output index and a contraction index -/

theorem lhs0 (i : S512x1024.Idx) (c : D.contr.Idx) : (D.lhsIdx i c 0).val = (i 0).val := by
  unfold DotDims.lhsIdx
  rw [dif_neg (show ¬(0 : Fin S512x4096.rank) ∈ D.lhsBatch by decide), dif_pos (show (0 : Fin S512x4096.rank) ∈ D.lhsNonContracting by decide)]
  rfl
theorem lhs1 (i : S512x1024.Idx) (c : D.contr.Idx) : (D.lhsIdx i c 1).val = (c ⟨0, by decide⟩).val :=
  D.lhsIdx_val_of_single rfl i c
theorem rhs0 (i : S512x1024.Idx) (c : D.contr.Idx) : (D.rhsIdx i c 0).val = (i 1).val := by
  unfold DotDims.rhsIdx
  rw [dif_neg (show ¬(0 : Fin S1024x4096.rank) ∈ D.rhsBatch by decide), dif_pos (show (0 : Fin S1024x4096.rank) ∈ D.rhsNonContracting by decide)]
  rfl
theorem rhs1 (i : S512x1024.Idx) (c : D.contr.Idx) : (D.rhsIdx i c 1).val = (c ⟨0, by decide⟩).val :=
  D.rhsIdx_val_of_single rfl i c

/-- The product of the x block and the weight, into a zero accumulator. -/
def prodVec (v0 : FVec Ideal S512x4096 .f32) (v2 : FVec Ideal S1024x4096 .bf16) : FVec Ideal S512x1024 .f32 :=
  matmul D none (truncf .bf16 v0 bitsLt_bf16_f32) (shapeCast S1024x4096 v2 shapeCasts_S1024x4096_S1024x4096)
    (constant S512x1024 .f32 0x00000000#32)

/-- The bias row broadcast over the block's rows. -/
def biasVec (v5 : FVec Ideal S1x1024 .f32) : FVec Ideal S512x1024 .f32 :=
  broadcastTo S512x1024 (shapeCast S1x1024 v5 shapeCasts_S1x1024_S1x1024) broadcasts_S1x1024_S512x1024

/-- The stored value is their sum. -/
theorem pay_eq (v0 : FVec Ideal S512x4096 .f32) (v2 : FVec Ideal S1024x4096 .bf16) (v5 : FVec Ideal S1x1024 .f32) :
    k1_pay1 (F := Ideal) v0 v2 v5 = addf (prodVec v0 v2) (biasVec v5) := rfl

/-- The product at (p, q): the sum over k of x (p, k) times the weight (q, k). -/
theorem prodVec_at (v0 : FVec Ideal S512x4096 .f32) (v2 : FVec Ideal S1024x4096 .bf16) (p : Fin 512) (q : Fin 1024) :
    prodVec v0 v2 (ix2 p q) = ∑ k : Fin 4096, v0 (ix2 p k) * v2 (ix2 q k) := by
  unfold prodVec
  simp only [matmul]
  rw [Ideal.matmul_constant_zero_apply, ← Equiv.sum_comp (ValueIdx.contrEquiv1 D 4096 rfl rfl).symm]
  refine Finset.sum_congr rfl fun k _ => ?_
  have hk := ValueIdx.contrEquiv1_symm_val D 4096 rfl rfl k
  have el : D.lhsIdx (ix2 p q) ((ValueIdx.contrEquiv1 D 4096 rfl rfl).symm k) = ix2 p k := funext fun a => Fin.ext (by
    match a with
    | ⟨0, _⟩ => exact lhs0 _ _
    | ⟨1, _⟩ => exact (lhs1 _ _).trans hk)
  have er : D.rhsIdx (ix2 p q) ((ValueIdx.contrEquiv1 D 4096 rfl rfl).symm k) = ix2 q k := funext fun a => Fin.ext (by
    match a with
    | ⟨0, _⟩ => exact rhs0 _ _
    | ⟨1, _⟩ => exact (rhs1 _ _).trans hk)
  rw [el, er, shapeCast_self]
  rfl

/-- The bias at (p, q) is the bias row at q. -/
theorem biasVec_at (v5 : FVec Ideal S1x1024 .f32) (p : Fin 512) (q : Fin 1024) :
    biasVec v5 (ix2 p q) = v5 (ix2 (0 : Fin 1) q) := by
  unfold biasVec
  rw [broadcastTo_1b_ab_apply, shapeCast_self]

/-- What the body stores at row `p`, column `q` of its output block. -/
theorem pay_at (v0 : FVec Ideal S512x4096 .f32) (v2 : FVec Ideal S1024x4096 .bf16) (v5 : FVec Ideal S1x1024 .f32)
    (p : Fin 512) (q : Fin 1024) :
    k1_pay1 (F := Ideal) v0 v2 v5 (ix2 p q) = (∑ k : Fin 4096, v0 (ix2 p k) * v2 (ix2 q k)) + v5 (ix2 (0 : Fin 1) q) := by
  rw [pay_eq]
  show prodVec v0 v2 (ix2 p q) + biasVec v5 (ix2 p q) = _
  rw [prodVec_at, biasVec_at]

end Cert.TernaryLinear.Matmul

end
-- ==== Proof.KernelRun.lean ====
/-
  The idealized kernel's run with its result named.

  The program is two kernel regions with one host operation between them. Its buffer contents at each
  boundary form a fold from the launch memory: after the first region the quantized weight array holds what
  that region's write-backs leave and every other buffer is as launched; the host operation then writes the
  bias as a one-row matrix; after the second region the result array holds what its write-backs leave. Every
  weakly fair execution terminates without a fault in a state whose unscoped buffers are exactly the end of
  that fold, so the result array is the fold's value at the result's buffer and the three arguments are as
  launched.
-/
import proofs.«164783_j23682449670371_2_alg».proof.Proof.Gen.KernelIdeal.Frame

set_option maxRecDepth 16384

noncomputable section

namespace Cert.TernaryLinear.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with the result array at the end of the fold of the buffer contents
    through the two regions and the host operation between them, and with the arguments as launched. -/
theorem run_main : θ_run defs (onTc (τ := τ) (main (F := F))) ⟨m, fun _ => 0, ρ⟩ (fun r => ∀ c : Dev nD,
      r.2.mem ((c.tc : Thread nD τ).loc main_v2) = W3 m ρ c (Proc.devRef .tc main_v2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c)⟩)

end Cert.TernaryLinear.Run

end
-- ==== Proof.KernelValue.lean ====
/-
  The idealized kernel's result array is `result` of its three arguments.

  First region (4 grid points): point t loads rows 256 t … 256 t + 255 of the weight matrix, whole rows, and
  writes back the same rows of the quantized matrix; the four blocks cover the 1024 rows, so the array the
  region leaves is the quantized weight matrix, entry by entry.
  Between the regions the bias is recast as a one-row matrix; nothing else is written.
  Second region (8 grid points): point t loads rows 512 t … 512 t + 511 of x, the whole quantized matrix and
  the whole bias row, and writes back the same rows of the output: at (r, q) the sum over k of x (r, k) times
  the quantized weight (q, k), plus the bias at q. The eight blocks cover the 4096 rows.
  A block's coordinate in its array is always (block index) × (block size) + (coordinate inside the block),
  and the point covering row r is r / (rows per block).
-/
import proofs.«164783_j23682449670371_2_alg».proof.Proof.Gen.KernelIdeal.Frame
import proofs.«164783_j23682449670371_2_alg».proof.Proof.Spec
import proofs.«164783_j23682449670371_2_alg».proof.Proof.KernelQuant
import proofs.«164783_j23682449670371_2_alg».proof.Proof.KernelMatmul
import proofs.«164783_j23682449670371_2_alg».proof.Proof.KernelRun
import Idealize.ShloMosaic.Lib.Pipeline.Value
import Idealize.ShloMosaic.Lib.ValueIdx
import Idealize.ShloMosaic.Lib.ValueLayout
import Idealize.ShloMosaic.Lib.StableHlo.Run

noncomputable section

set_option maxRecDepth 16384

namespace Cert.TernaryLinear.Value

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.TernaryLinear

/-- The layer over an already quantized weight matrix and a one-row bias. -/
def layerOf (x : (⟨2, ![4096, 4096]⟩ : Shape).Idx → EReal) (wq : (⟨2, ![1024, 4096]⟩ : Shape).Idx → EReal)
    (b2 : (⟨2, ![1, 1024]⟩ : Shape).Idx → EReal) : (⟨2, ![4096, 1024]⟩ : Shape).Idx → EReal :=
  fun i => (∑ k : Fin 4096, x (ix2 (i 0) k) * wq (ix2 (i 1) k)) + b2 (ix2 (0 : Fin 1) (i 1))

theorem layerOf_apply (x : (⟨2, ![4096, 4096]⟩ : Shape).Idx → EReal) (wq : (⟨2, ![1024, 4096]⟩ : Shape).Idx → EReal)
    (b2 : (⟨2, ![1, 1024]⟩ : Shape).Idx → EReal) (p : Fin 4096) (q : Fin 1024) :
    layerOf x wq b2 (ix2 p q) = (∑ k : Fin 4096, x (ix2 p k) * wq (ix2 q k)) + b2 (ix2 (0 : Fin 1) q) := rfl

theorem hz : (![0, 0] : Fin 2 → Nat) = fun _ => 0 := funext fun a => by fin_cases a <;> rfl

section Regions

variable (V : (c : Dev nD) → (b : Ref sig .tc) → Buf (Elt Ideal) ((c : Thread nD τ).loc b))

/-! ## The first region: the quantized weight matrix -/

/-- The index maps over the grid: point `t` takes block row `t` of both windows, block column 0. -/
theorem idx0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point `t` writes back is block `t` of the quantized matrix of the weights as the region finds them. -/
theorem flushed0 (c : Dev nD) (t : Fin cfg0.N) :
    (dat0 V c).flushed 1 t = ((cfg0.win 1).blk t).view.read (Elt Ideal) (quantized (V c main_arg1)) := by
  show (cfg0.win 1).cut (grid0.coords t) ((dat0 V c).after 1 t) = _
  rw [after0_1]
  unfold out0_1
  rw [View.canon_unit_zero hz]
  simp only [View.ld_unit_zero (S := S256x4096) hz]
  obtain ⟨e0, e1, e2, e3⟩ := idx0 t
  have hN : grid0.N = 4 := N_0
  have ht : t.val < grid0.N := t.isLt
  refine funext fun (j : S256x4096.Idx) => ?_
  obtain ⟨p, q, rfl⟩ : ∃ (p : Fin 256) (q : Fin 4096), j = ix2 p q := ⟨j 0, j 1, eq_ix2 j⟩
  show k0_pay1 (F := Ideal) (iblk0 V c 0 t) (ix2 p q) = quantized (V c main_arg1) (((cfg0.win 1).blk t).view.emb (ix2 p q))
  refine (Quant.pay_at (iblk0 V c 0 t) p q).trans ?_
  have hr : t.val * 256 + p.val < 1024 := by have := p.isLt; omega
  have eo : ((cfg0.win 1).blk t).view.emb (ix2 p q) = ix2 (⟨t.val * 256 + p.val, hr⟩ : Fin 1024) q := by
    funext a; apply Fin.ext
    match a with
    | ⟨0, _⟩ => show win0_1.index t (0 : Fin 2) * 256 + 1 * p.val = t.val * 256 + p.val; omega
    | ⟨1, _⟩ => show win0_1.index t (1 : Fin 2) * 4096 + 1 * q.val = q.val; omega
  rw [eo, quantized_apply]
  refine congrArg (fun r => ternary r q) (funext fun k => ?_)
  show V c main_arg1 (((cfg0.win 0).blk t).view.emb (ix2 p k)) = V c main_arg1 (ix2 (⟨t.val * 256 + p.val, hr⟩ : Fin 1024) k)
  refine congrArg (V c main_arg1) ?_
  funext a; apply Fin.ext
  match a with
  | ⟨0, _⟩ => show win0_0.index t (0 : Fin 2) * 256 + 1 * p.val = t.val * 256 + p.val; omega
  | ⟨1, _⟩ => show win0_0.index t (1 : Fin 2) * 4096 + 1 * k.val = k.val; omega

/-- An index of the array is in point `t`'s block iff each coordinate is in the block's range on its axis. -/
theorem mem_blk0 (t : Fin cfg0.N) (i : S1024x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v0).slice (win0_1.rect t)).set ↔ _
  rw [View.set_slice_whole, Rect.mem_set_unit]
  exact Iff.rfl

/-- Every entry lies in the block of the point its row divided by 256 names. -/
theorem cover0 (i : S1024x4096.Idx) :
    ∃ t : Fin cfg0.N, (cfg0.win 1).flush t = true ∧ i ∈ ((cfg0.win 1).blk t).view.set := by
  have hi0 : (i 0).val < 1024 := (i 0).isLt
  have hi1 : (i 1).val < 4096 := (i 1).isLt
  have hN : grid0.N = 4 := N_0
  have hlt : (i 0).val / 256 < grid0.N := by omega
  obtain ⟨e0, e1, e2, e3⟩ := idx0 ⟨(i 0).val / 256, hlt⟩
  refine ⟨⟨(i 0).val / 256, hlt⟩, flush0_1 _, ?_⟩
  rw [mem_blk0]
  intro a
  match a with
  | ⟨0, _⟩ =>
    show win0_1.index ⟨(i 0).val / 256, hlt⟩ (0 : Fin 2) * 256 ≤ (i 0).val ∧ (i 0).val < win0_1.index ⟨(i 0).val / 256, hlt⟩ (0 : Fin 2) * 256 + 256
    rw [e2]; show (i 0).val / 256 * 256 ≤ (i 0).val ∧ (i 0).val < (i 0).val / 256 * 256 + 256; omega
  | ⟨1, _⟩ =>
    show win0_1.index ⟨(i 0).val / 256, hlt⟩ (1 : Fin 2) * 4096 ≤ (i 1).val ∧ (i 1).val < win0_1.index ⟨(i 0).val / 256, hlt⟩ (1 : Fin 2) * 4096 + 4096
    rw [e3]; omega

/-- The array the first region leaves is the quantized matrix of the weights it found. -/
theorem final0 (c : Dev nD) : (dat0 V c).arrAt 1 cfg0.N = quantized (V c main_arg1) :=
  (dat0 V c).arrAt_eq_of_cover 1 (quantized (V c main_arg1)) (fun t _ => flushed0 V c t) cover0

/-! ## The second region: the layer -/

/-- The index maps over the grid: point `t` takes block row `t` of x and of the output; the quantized weight
    and the bias are one block each. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the layer of the three arrays as the region finds them. -/
theorem flushed1 (c : Dev nD) (t : Fin cfg1.N) :
    (dat1 V c).flushed 3 t
      = ((cfg1.win 3).blk t).view.read (Elt Ideal) (layerOf (V c main_arg0) (V c main_v0) (V c main_v1)) := by
  show (cfg1.win 3).cut (grid1.coords t) ((dat1 V c).after 3 t) = _
  rw [after1_3]
  unfold out1_3
  rw [View.canon_unit_zero hz]
  simp only [View.ld_unit_zero (S := S512x4096) hz, View.ld_unit_zero (S := S1024x4096) hz, View.ld_unit_zero (S := S1x1024) hz]
  obtain ⟨e0, e1, e2, e3, e4, e5, e6, e7⟩ := idx1 t
  have hN : grid1.N = 8 := N_1
  have ht : t.val < grid1.N := t.isLt
  refine funext fun (j : S512x1024.Idx) => ?_
  obtain ⟨p, q, rfl⟩ : ∃ (p : Fin 512) (q : Fin 1024), j = ix2 p q := ⟨j 0, j 1, eq_ix2 j⟩
  show k1_pay1 (F := Ideal) (iblk1 V c 0 t) (iblk1 V c 1 t) (iblk1 V c 2 t) (ix2 p q)
    = layerOf (V c main_arg0) (V c main_v0) (V c main_v1) (((cfg1.win 3).blk t).view.emb (ix2 p q))
  refine (Matmul.pay_at (iblk1 V c 0 t) (iblk1 V c 1 t) (iblk1 V c 2 t) p q).trans ?_
  have hr : t.val * 512 + p.val < 4096 := by have := p.isLt; omega
  have eo : ((cfg1.win 3).blk t).view.emb (ix2 p q) = ix2 (⟨t.val * 512 + p.val, hr⟩ : Fin 4096) q := by
    funext a; apply Fin.ext
    match a with
    | ⟨0, _⟩ => show win1_3.index t (0 : Fin 2) * 512 + 1 * p.val = t.val * 512 + p.val; omega
    | ⟨1, _⟩ => show win1_3.index t (1 : Fin 2) * 1024 + 1 * q.val = q.val; omega
  rw [eo, layerOf_apply]
  have ex : ∀ k : Fin 4096, iblk1 V c 0 t (ix2 p k) = V c main_arg0 (ix2 (⟨t.val * 512 + p.val, hr⟩ : Fin 4096) k) := fun k => by
    show V c main_arg0 (((cfg1.win 0).blk t).view.emb (ix2 p k)) = _
    refine congrArg (V c main_arg0) ?_
    funext a; apply Fin.ext
    match a with
    | ⟨0, _⟩ => show win1_0.index t (0 : Fin 2) * 512 + 1 * p.val = t.val * 512 + p.val; omega
    | ⟨1, _⟩ => show win1_0.index t (1 : Fin 2) * 4096 + 1 * k.val = k.val; omega
  have ew : ∀ k : Fin 4096, iblk1 V c 1 t (ix2 q k) = V c main_v0 (ix2 q k) := fun k => by
    show V c main_v0 (((cfg1.win 1).blk t).view.emb (ix2 q k)) = _
    refine congrArg (V c main_v0) ?_
    funext a; apply Fin.ext
    match a with
    | ⟨0, _⟩ => show win1_1.index t (0 : Fin 2) * 1024 + 1 * q.val = q.val; omega
    | ⟨1, _⟩ => show win1_1.index t (1 : Fin 2) * 4096 + 1 * k.val = k.val; omega
  have eb : iblk1 V c 2 t (ix2 (0 : Fin 1) q) = V c main_v1 (ix2 (0 : Fin 1) q) := by
    show V c main_v1 (((cfg1.win 2).blk t).view.emb (ix2 (0 : Fin 1) q)) = _
    refine congrArg (V c main_v1) ?_
    funext a; apply Fin.ext
    match a with
    | ⟨0, _⟩ => show win1_2.index t (0 : Fin 2) * 1 + 1 * 0 = 0; omega
    | ⟨1, _⟩ => show win1_2.index t (1 : Fin 2) * 1024 + 1 * q.val = q.val; omega
  exact congrArg₂ (· + ·) (Finset.sum_congr rfl fun k _ => congrArg₂ (· * ·) (ex k) (ew k)) eb

theorem mem_blk1 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v2).slice (win1_3.rect t)).set ↔ _
  rw [View.set_slice_whole, Rect.mem_set_unit]
  exact Iff.rfl

/-- Every entry lies in the block of the point its row divided by 512 names. -/
theorem cover1 (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : grid1.N = 8 := N_1
  have hlt : (i 0).val / 512 < grid1.N := by omega
  obtain ⟨e0, e1, e2, e3, e4, e5, e6, e7⟩ := idx1 ⟨(i 0).val / 512, hlt⟩
  refine ⟨⟨(i 0).val / 512, hlt⟩, flush1_3 _, ?_⟩
  rw [mem_blk1]
  intro a
  match a with
  | ⟨0, _⟩ =>
    show win1_3.index ⟨(i 0).val / 512, hlt⟩ (0 : Fin 2) * 512 ≤ (i 0).val ∧ (i 0).val < win1_3.index ⟨(i 0).val / 512, hlt⟩ (0 : Fin 2) * 512 + 512
    rw [e6]; show (i 0).val / 512 * 512 ≤ (i 0).val ∧ (i 0).val < (i 0).val / 512 * 512 + 512; omega
  | ⟨1, _⟩ =>
    show win1_3.index ⟨(i 0).val / 512, hlt⟩ (1 : Fin 2) * 1024 ≤ (i 1).val ∧ (i 1).val < win1_3.index ⟨(i 0).val / 512, hlt⟩ (1 : Fin 2) * 1024 + 1024
    rw [e7]; omega

/-- The array the second region leaves is the layer of the three arrays it found. -/
theorem final1 (c : Dev nD) : (dat1 V c).arrAt 3 cfg1.N = layerOf (V c main_arg0) (V c main_v0) (V c main_v1) :=
  (dat1 V c).arrAt_eq_of_cover 3 (layerOf (V c main_arg0) (V c main_v0) (V c main_v1)) (fun t _ => flushed1 V c t) cover1

/-- The same with the three arrays named. -/
theorem final1_of (c : Dev nD) (x : (⟨2, ![4096, 4096]⟩ : Shape).Idx → EReal) (wq : (⟨2, ![1024, 4096]⟩ : Shape).Idx → EReal)
    (b2 : (⟨2, ![1, 1024]⟩ : Shape).Idx → EReal) (hx : V c main_arg0 = x) (hw : V c main_v0 = wq) (hb : V c main_v1 = b2) :
    (dat1 V c).arrAt 3 cfg1.N = layerOf x wq b2 := by
  subst hx hw hb; exact final1 V c

end Regions

/-! ## The fold through the program -/

variable (m : (ℓ : Loc nD τ sig) → Buf (Elt Ideal) ℓ) (ρ : Dev nD → PrngReg)

/-- The host operation between the regions writes the bias matrix only. -/
theorem hostOps1_keeps (X : Valuation τ sig (Elt Ideal)) {b : Ref sig .tc} (hb : b ≠ main_v1) :
    StableHlo.after hostOps1 X (Proc.devRef .tc b) = X (Proc.devRef .tc b) := by
  simp only [hostOps1, StableHlo.after_cons, StableHlo.after_nil]
  exact StableHlo.reshape_result_ne _ _ _ _ _ _ _ hb

/-- The second region finds x as launched. -/
theorem V2_main_arg0 (c : Dev nD) : V2 m ρ c main_arg0 = m ((c : Thread nD τ).loc main_arg0) :=
  (hostOps1_keeps (W1 m ρ c) (b := main_arg0) (by decide)).trans (W1_of_ne m ρ c main_arg0 (by decide))

/-- The second region finds the quantized matrix of the launched weights. -/
theorem V2_main_v0 (c : Dev nD) : V2 m ρ c main_v0 = quantized (m ((c : Thread nD τ).loc main_arg1)) :=
  (hostOps1_keeps (W1 m ρ c) (b := main_v0) (by decide)).trans ((W1_arr m ρ c 1).trans (final0 (V0 m ρ) c))

/-- The second region finds the launched bias as a one-row matrix. -/
theorem V2_main_v1 (c : Dev nD) :
    V2 m ρ c main_v1 = shapeCast S1x1024 (m ((c : Thread nD τ).loc main_arg2)) shapeCasts_S1024_S1x1024 := by
  show StableHlo.after hostOps1 (W1 m ρ c) (Proc.devRef .tc main_v1) = _
  simp only [hostOps1, StableHlo.after_cons, StableHlo.after_nil]
  rw [StableHlo.reshape_result, W1_of_ne m ρ c main_arg2 (by decide)]
  rfl

/-- The result array at the end of the fold is `result` of the launched arguments. -/
theorem result_value (c : Dev nD) :
    W3 m ρ c (Proc.devRef .tc main_v2)
      = result (m ((c : Thread nD τ).loc main_arg0)) (m ((c : Thread nD τ).loc main_arg1)) (m ((c : Thread nD τ).loc main_arg2)) := by
  refine (W3_arr m ρ c 3).trans ?_
  refine (final1_of (V2 m ρ) c _ _ _ (V2_main_arg0 m ρ c) (V2_main_v0 m ρ c) (V2_main_v1 m ρ c)).trans ?_
  funext i
  obtain ⟨p, q, rfl⟩ : ∃ (p : Fin 4096) (q : Fin 1024), i = ix2 p q := ⟨i 0, i 1, eq_ix2 i⟩
  rw [layerOf_apply, result_apply, shapeCast_a_1a_apply]
  rfl

/-- Every weakly fair execution of the idealized kernel ends with its result at `result` of the launched
    arguments, and the arguments as launched. -/
theorem run : θ_run defs (onTc (τ := τ) (main (F := Ideal))) ⟨m, fun _ => 0, ρ⟩ (fun r => ∀ c : Dev nD,
      r.2.mem ((c.tc : Thread nD τ).loc main_v2)
        = result (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_value m ρ c), (h c).2⟩) (Run.run_main m ρ)

end Cert.TernaryLinear.Value

end
-- ==== Proof.Finite.lean ====
/-
  Under the precondition every weight is a real number.

  The precondition is the conjunction of three tests, one per input array: every entry's magnitude is below
  the +∞ word. A conjunction of one-bit words is 1 only when each is; a reduction by `and` into a single
  result is 1 only when every entry is; and an extended real whose magnitude is below +∞ is neither +∞ nor
  -∞ (at either infinity the magnitude IS +∞), hence a real number.
-/
import proofs.«164783_j23682449670371_2_alg».proof.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.TernaryLinear.Finite

open Cert.Pre_finite_inputs Idealize.ShloMosaic

variable [Cert.Pre_finite_inputs.Facts]

/-- The scalar shape has one index. -/
instance : Subsingleton S_.Idx := ⟨fun a b => funext fun d => d.elim0⟩

/-- An extended real whose magnitude compares below the +∞ word is a real number. -/
theorem real_of_mag_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | coe r => exact ⟨r, rfl⟩
  | top => simp [Ideal.cmp] at h

/-- The precondition's second test: every entry of the weight array is a real number. -/
theorem weights_real (a0 : FVec Ideal S4096x4096 .f32) (a1 : FVec Ideal S1024x4096 .f32) (a2 : FVec Ideal S1024 .f32)
    (h : fn (F := Ideal) a0 a1 a2 = fun _ => 1#1) (i : S1024x4096.Idx) : ∃ r : ℝ, a1 i = (r : EReal) := by
  have h0 := congrFun h ValueIdx.ix0
  dsimp only [fn] at h0
  obtain ⟨h1, -⟩ := IntOp.andi_eq_one.1 h0
  obtain ⟨-, h7⟩ := IntOp.andi_eq_one.1 h1
  have hi := Host.reduce_andi_all _ _ _ _ _ h7 i
  have hi' : Ideal.cmp .olt (max (a1 i) (-(a1 i)))
      (broadcastInDim S1024x4096 ![] Facts.bcast_S_S1024x4096 (constant (F := Ideal) S_ .f32 0x7F800000#32) i) = 1#1 := hi
  rw [broadcastInDim_apply _ _ _ i (fun a => a.elim0) (fun a => a.elim0)] at hi'
  exact real_of_mag_lt_inf (a1 i) hi'

end Cert.TernaryLinear.Finite

end
-- ==== Proof.lean ====
/-
  A linear layer over ternary-quantized weights: the kernel against its reference, on the extended reals.

  Each row of the weight matrix is quantized to {-1, 0, +1} times one scale: an entry is kept when its
  magnitude exceeds 0.05 (as a binary32 word) times the row's mean magnitude, the scale is the mean
  magnitude of the kept entries (over at least one), and the layer multiplies x by the transpose of the
  quantized matrix and adds the bias. The kernel does this in two passes (quantize 256 rows at a time, then
  multiply 512 rows of x at a time by the whole quantized matrix); the reference does it in one expression
  and adds the weight back after subtracting it. Both are the function `result` of the three arguments
  (Proof/Spec.lean): the kernel's side is Proof/KernelValue.lean (each pass's blocks cover its output array,
  each block being the corresponding rows of one whole-array function), the reference's is
  Proof/RefIsSpec.lean (its operations read one at a time), and the only law that needs a hypothesis is
  w + (q - w) = q, true for a real w: the precondition that the inputs are finite gives it
  (Proof/Finite.lean).

  The three frames: the two kernel programs' are generated; the reference has no kernel, and its frame is its
  generated run with the result dropped. The kernel's idealization rewrote one pattern, the sign bit of a
  weight placed on the word 1.0, as "-1 where the entry is negative, else 1"; that rule's statement is the
  one conjunct of `preserves`.
-/
import proofs.«164783_j23682449670371_2_alg».proof.Defs
import proofs.«164783_j23682449670371_2_alg».proof.Proof.Gen.Kernel
import proofs.«164783_j23682449670371_2_alg».proof.Proof.Gen.Kernel.Skeleton
import proofs.«164783_j23682449670371_2_alg».proof.Proof.Gen.Kernel.Launch
import proofs.«164783_j23682449670371_2_alg».proof.Proof.Gen.Kernel.Points
import proofs.«164783_j23682449670371_2_alg».proof.Proof.Gen.Kernel.Frame
import proofs.«164783_j23682449670371_2_alg».proof.Proof.Gen.KernelIdeal
import proofs.«164783_j23682449670371_2_alg».proof.Proof.Gen.KernelIdeal.Skeleton
import proofs.«164783_j23682449670371_2_alg».proof.Proof.Gen.KernelIdeal.Launch
import proofs.«164783_j23682449670371_2_alg».proof.Proof.Gen.KernelIdeal.Points
import proofs.«164783_j23682449670371_2_alg».proof.Proof.Gen.KernelIdeal.Frame
import proofs.«164783_j23682449670371_2_alg».proof.Proof.Gen.ReferenceIdeal
import proofs.«164783_j23682449670371_2_alg».proof.Proof.Gen.Pre_finite_inputs
import proofs.«164783_j23682449670371_2_alg».proof.Proof.Gen.ReferenceIdeal.Run
import proofs.«164783_j23682449670371_2_alg».proof.Proof.Gen.ReferenceIdeal.Read
import proofs.«164783_j23682449670371_2_alg».proof.Proof.Spec
import proofs.«164783_j23682449670371_2_alg».proof.Proof.RefIsSpec
import proofs.«164783_j23682449670371_2_alg».proof.Proof.KernelValue
import proofs.«164783_j23682449670371_2_alg».proof.Proof.Finite
import Idealize.ShloMosaic.Adequacy
import Idealize.ShloMosaic.Init

noncomputable section

namespace Cert.Proof

open Idealize.ShloMosaic Idealize.SL.Sem Cert.TernaryLinear

theorem frame_k : Cert.frame_Kernel := fun m ρ _ => Cert.Kernel.Gen.frame m ρ

theorem frame_ki : Cert.frame_KernelIdeal := fun m ρ _ => Cert.KernelIdeal.Gen.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the word 1.0 carrying an entry's sign bit is -1 where the entry is
    negative and 1 elsewhere. -/
theorem preserves : Cert.preserves_Kernel_KernelIdeal :=
  IdealRules.sign_bit.statement Cert.KernelIdeal.S256x4096 .f32

/-- From memories that agree on the arguments both programs end with the result array at `result` of the
    kernel's arguments: the kernel by its run, the reference by its run read stage by stage, the weights
    being real numbers under the precondition. -/
theorem algebraic : Cert.algebraic_KernelIdeal_ReferenceIdeal := by
  intro m ρ m' ρ' hpre hagree
  refine ⟨_, Value.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq _ _ _).trans ?_
  rw [(hagree c).1, (hagree c).2.1, (hagree c).2.2]
  exact Ref.result_eq _ _ _ (fun i => Finite.weights_real _ _ _ (hpre c) i)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
